-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x1024 : Shape := ⟨3, ![32, 1024, 1024]⟩
abbrev S1024x1024 : Shape := ⟨2, ![1024, 1024]⟩
abbrev S1024x2048 : Shape := ⟨2, ![1024, 2048]⟩
abbrev S_ : Shape := ⟨0, ![]⟩

class Facts : Prop where
  bcast_S_S32x1024x1024 : S_.BroadcastsInDim S32x1024x1024 (![] : Fin 0 → Fin S32x1024x1024.rank)
  reducesTo_S32x1024x1024_S_d0_1_2 : S32x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024x2048 : S_.BroadcastsInDim S1024x2048 (![] : Fin 0 → Fin S1024x2048.rank)
  reducesTo_S1024x2048_S_d0_1 : S1024x2048.ReducesTo [0, 1] S_

variable [Facts]

def fn_part1 {F : FTy → Type} [FloatOps F] (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  main_v18

def fn {F : FTy → Type} [FloatOps F] (main_arg0 : FVec F S32x1024x1024 .f32) (main_arg1 : FVec F S32x1024x1024 .f32) (main_arg2 : FVec F S1024x1024 .f32) (main_arg3 : FVec F S1024x2048 .f32) : IVec S_ 1 :=
  let main_v0 : FVec F S32x1024x1024 .f32 := Host.absf main_arg0
  let main_cst : FVec F S_ .f32 := constant S_ .f32 0x7F800000#32
  let main_v1 : FVec F S32x1024x1024 .f32 := broadcastInDim S32x1024x1024 ![] bcast_S_S32x1024x1024 main_cst
  let main_v2 : IVec S32x1024x1024 1 := cmpf .olt main_v0 main_v1
  let main_c : IVec S_ 1 := constantI S_ 1 1#1
  let main_v3 : IVec S_ 1 := (fun x v => Host.reduce IntOp.andi x v reducesTo_S32x1024x1024_S_d0_1_2 h_S_) main_v2 main_c
  let main_v4 : FVec F S32x1024x1024 .f32 := Host.absf main_arg1
  let main_cst_0 : FVec F S_ .f32 := constant S_ .f32 0x7F800000#32
  let main_v5 : FVec F S32x1024x1024 .f32 := broadcastInDim S32x1024x1024 ![] bcast_S_S32x1024x1024 main_cst_0
  let main_v6 : IVec S32x1024x1024 1 := cmpf .olt main_v4 main_v5
  let main_c_1 : IVec S_ 1 := constantI S_ 1 1#1
  let main_v7 : IVec S_ 1 := (fun x v => Host.reduce IntOp.andi x v reducesTo_S32x1024x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x2048 .f32 := Host.absf main_arg3
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_v13 main_v16
-- ==== Kernel.lean ====
abbrev S32x1024x1024 : Shape := ⟨3, ![32, 1024, 1024]⟩
abbrev S1024x1024 : Shape := ⟨2, ![1024, 1024]⟩
abbrev S1024x2048 : Shape := ⟨2, ![1024, 2048]⟩
abbrev S1024x32768 : Shape := ⟨2, ![1024, 32768]⟩
abbrev S1x256x1024 : Shape := ⟨3, ![1, 256, 1024]⟩
abbrev S1x1024x1024 : Shape := ⟨3, ![1, 1024, 1024]⟩
abbrev S256x1024 : Shape := ⟨2, ![256, 1024]⟩
abbrev S256 : Shape := ⟨1, ![256]⟩
abbrev S256x1 : Shape := ⟨2, ![256, 1]⟩
abbrev S1024x32x1024 : Shape := ⟨3, ![1024, 32, 1024]⟩

abbrev nBuf : Space → Nat
  | .hbm => 10
  | .vmem => 10
  | .smem => 0
  | _ => 0

abbrev bufTy : (tb : Table) → Fin (tcTables nBuf tb) → BufTy
  | .hbm, ⟨0, _⟩ => ⟨S32x1024x1024, .f32⟩
  | .hbm, ⟨1, _⟩ => ⟨S32x1024x1024, .f32⟩
  | .hbm, ⟨2, _⟩ => ⟨S1024x1024, .f32⟩
  | .hbm, ⟨3, _⟩ => ⟨S1024x2048, .f32⟩
  | .hbm, ⟨4, _⟩ => ⟨S1024x1024, .bf16⟩
  | .hbm, ⟨5, _⟩ => ⟨S1024x2048, .bf16⟩
  | .hbm, ⟨6, _⟩ => ⟨S1024x32768, .f32⟩
  | .hbm, ⟨7, _⟩ => ⟨S1024x32768, .f32⟩
  | .hbm, ⟨8, _⟩ => ⟨S1024x32x1024, .f32⟩
  | .hbm, ⟨9, _⟩ => ⟨S1024x32x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1024x1024, .bf16⟩
  | .local _ .vmem, ⟨5, _⟩ => ⟨S1024x2048, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | _, _ => ⟨S32x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bitsLt_bf16_f32 : FTy.bits .bf16 < FTy.bits .f32
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S256x1024_S256 : S256x1024.Reduces [1] S256
  shapeCasts_S256_S256x1 : S256.ShapeCasts S256x1
  broadcasts_S256x1_S256x1024 : S256x1.Broadcasts S256x1024
  inb_S256x1024_S256x1024_0_0 : ∀ a, (![0, 0] : Fin 2 → Nat) a + S256x1024.size a ≤ S256x1024.size a
  h_S256x1024 : 0 < S256x1024.numel
  inb_S1024x2048_S1024x1024_0_0 : ∀ a, (![0, 0] : Fin 2 → Nat) a + S1024x1024.size a ≤ S1024x2048.size a
  inb_S1024x2048_S1024x1024_0_1024 : ∀ a, (![0, 1024] : Fin 2 → Nat) a + S1024x1024.size a ≤ S1024x2048.size a
  shapeCasts_S1024x32768_S1024x32x1024 : S1024x32768.ShapeCasts S1024x32x1024
  dot_S256x1024_S1024x1024_S256x1024_1_1_0_0_n_n_wf : DotDims.WF S256x1024 S1024x1024 S256x1024 [1] [1] [0] [0] [] []
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S32x1024x1024.size a
  hwx0_0 : ∀ i : grid0.Coords, EltTy.bits .f32 = 32 ∨ (Rect.block (s := S32x1024x1024) S1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S32x1024x1024.size a
  hwx0_1 : ∀ i : grid0.Coords, EltTy.bits .f32 = 32 ∨ (Rect.block (s := S32x1024x1024) S1x1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S1024x2048.size a
  hwx0_3 : ∀ i : grid0.Coords, EltTy.bits .bf16 = 32 ∨ (Rect.block (s := S1024x2048) S1024x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S1024x32768.size a
  hwx0_4 : ∀ i : grid0.Coords, EltTy.bits .f32 = 32 ∨ (Rect.block (s := S1024x32768) S256x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S1024x32768.size a
  hwx0_5 : ∀ i : grid0.Coords, EltTy.bits .f32 = 32 ∨ (Rect.block (s := S1024x32768) S256x1024.size (cc0_transform_5 i) (hinb0_5 i)).WholeWords (EltTy.packing .f32)

variable [Facts₀]

def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S256x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x1024x1024 : Shape := ⟨3, ![32, 1024, 1024]⟩
abbrev S1024x1024 : Shape := ⟨2, ![1024, 1024]⟩
abbrev S1024x2048 : Shape := ⟨2, ![1024, 2048]⟩
abbrev S_ : Shape := ⟨0, ![]⟩
abbrev S32x1024 : Shape := ⟨2, ![32, 1024]⟩
abbrev S32x1024x1 : Shape := ⟨3, ![32, 1024, 1]⟩
abbrev S32x1024x2048 : Shape := ⟨3, ![32, 1024, 2048]⟩
abbrev S1024x32x1024 : Shape := ⟨3, ![1024, 32, 1024]⟩

abbrev nBuf : Space → Nat
  | .hbm => 26
  | .vmem => 0
  | .smem => 0
  | _ => 0

abbrev bufTy : (tb : Table) → Fin (tcTables nBuf tb) → BufTy
  | .hbm, ⟨0, _⟩ => ⟨S32x1024x1024, .f32⟩
  | .hbm, ⟨1, _⟩ => ⟨S32x1024x1024, .f32⟩
  | .hbm, ⟨2, _⟩ => ⟨S1024x1024, .f32⟩
  | .hbm, ⟨3, _⟩ => ⟨S1024x2048, .f32⟩
  | .hbm, ⟨4, _⟩ => ⟨S32x1024x1024, .f32⟩
  | .hbm, ⟨5, _⟩ => ⟨S32x1024x1024, .f32⟩
  | .hbm, ⟨6, _⟩ => ⟨S_, .f32⟩
  | .hbm, ⟨7, _⟩ => ⟨S32x1024, .f32⟩
  | .hbm, ⟨8, _⟩ => ⟨S_, .f32⟩
  | .hbm, ⟨9, _⟩ => ⟨S32x1024, .f32⟩
  | .hbm, ⟨10, _⟩ => ⟨S32x1024, .f32⟩
  | .hbm, ⟨11, _⟩ => ⟨S32x1024x1, .f32⟩
  | .hbm, ⟨12, _⟩ => ⟨S32x1024x1024, .f32⟩
  | .hbm, ⟨13, _⟩ => ⟨S32x1024x1024, .f32⟩
  | .hbm, ⟨14, _⟩ => ⟨S32x1024x1024, .f32⟩
  | .hbm, ⟨15, _⟩ => ⟨S_, .f32⟩
  | .hbm, ⟨16, _⟩ => ⟨S32x1024, .f32⟩
  | .hbm, ⟨17, _⟩ => ⟨S32x1024x1, .f32⟩
  | .hbm, ⟨18, _⟩ => ⟨S32x1024x1024, .f32⟩
  | .hbm, ⟨19, _⟩ => ⟨S32x1024x1024, .f32⟩
  | .hbm, ⟨20, _⟩ => ⟨S32x1024x1024, .f32⟩
  | .hbm, ⟨21, _⟩ => ⟨S32x1024x2048, .f32⟩
  | .hbm, ⟨22, _⟩ => ⟨S32x1024x1024, .f32⟩
  | .hbm, ⟨23, _⟩ => ⟨S32x1024x1024, .f32⟩
  | .hbm, ⟨24, _⟩ => ⟨S1024x32x1024, .f32⟩
  | .hbm, ⟨25, _⟩ => ⟨S1024x32x1024, .f32⟩
  | _, _ => ⟨S32x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  reducesTo_S32x1024x1024_S32x1024_d2 : S32x1024x1024.ReducesTo [2] S32x1024
  h_S_ : 0 < S_.numel
  bcast_S_S32x1024 : S_.BroadcastsInDim S32x1024 (![] : Fin 0 → Fin S32x1024.rank)
  bcast_S32x1024_S32x1024x1_0_1 : S32x1024.BroadcastsInDim S32x1024x1 (![0, 1] : Fin 2 → Fin S32x1024x1.rank)
  bcast_S32x1024x1_S32x1024x1024_0_1_2 : S32x1024x1.BroadcastsInDim S32x1024x1024 (![0, 1, 2] : Fin 3 → Fin S32x1024x1024.rank)
  concatenates_S32x1024x1024_S32x1024x1024_S32x1024x2048_d2 : Shape.Concatenates [S32x1024x1024, S32x1024x1024] S32x1024x2048 2
  transposes_S32x1024x1024_S1024x32x1024_1_0_2 : S32x1024x1024.Transposes [1, 0, 2] S1024x32x1024
  dot_S32x1024x1024_S1024x1024_S32x1024x1024_2_1_01_0_n_n_wf : DotDims.WF S32x1024x1024 S1024x1024 S32x1024x1024 [2] [1] [0, 1] [0] [] []
  dot_S32x1024x1024_S32x1024x1024_S32x1024x1024_2_2_1_1_0_0_wf : DotDims.WF S32x1024x1024 S32x1024x1024 S32x1024x1024 [2] [2] [1] [1] [0] [0]
  dot_S32x1024x1024_S32x1024x1024_S32x1024x1024_2_1_1_2_0_0_wf : DotDims.WF S32x1024x1024 S32x1024x1024 S32x1024x1024 [2] [1] [1] [2] [0] [0]
  dot_S32x1024x2048_S1024x2048_S32x1024x1024_2_1_01_0_n_n_wf : DotDims.WF S32x1024x2048 S1024x2048 S32x1024x1024 [2] [1] [0, 1] [0] [] []

variable [Facts₀]

def dot_S32x1024x1024_S1024x1024_S32x1024x1024_2_1_01_0_n_n : DotDims S32x1024x1024 S1024x1024 S32x1024x1024 where
  lhsContracting := [2]
  rhsContracting := [1]
  lhsNonContracting := [0, 1]
  rhsNonContracting := [0]
  lhsBatch := []
  rhsBatch := []
  wf := dot_S32x1024x1024_S1024x1024_S32x1024x1024_2_1_01_0_n_n_wf
def dot_S32x1024x1024_S32x1024x1024_S32x1024x1024_2_2_1_1_0_0 : DotDims S32x1024x1024 S32x1024x1024 S32x1024x1024 where
  lhsContracting := [2]
  rhsContracting := [2]
  lhsNonContracting := [1]
  rhsNonContracting := [1]
  lhsBatch := [0]
  rhsBatch := [0]
  wf := dot_S32x1024x1024_S32x1024x1024_S32x1024x1024_2_2_1_1_0_0_wf
def dot_S32x1024x1024_S32x1024x1024_S32x1024x1024_2_1_1_2_0_0 : DotDims S32x1024x1024 S32x1024x1024 S32x1024x1024 where
  lhsContracting := [2]
  rhsContracting := [1]
  lhsNonContracting := [1]
  rhsNonContracting := [2]
  lhsBatch := [0]
  rhsBatch := [0]
  wf := dot_S32x1024x1024_S32x1024x1024_S32x1024x1024_2_1_1_2_0_0_wf
def dot_S32x1024x2048_S1024x2048_S32x1024x1024_2_1_01_0_n_n : DotDims S32x1024x2048 S1024x2048 S32x1024x1024 where
  lhsContracting := [2]
  rhsContracting := [1]
  lhsNonContracting := [0, 1]
  rhsNonContracting := [0]
  lhsBatch := []
  rhsBatch := []
  wf := dot_S32x1024x2048_S1024x2048_S32x1024x1024_2_1_01_0_n_n_wf

class Facts : Prop extends Facts₀ where

variable [Facts]
-- ==== Proof.AttentionSpec.lean ====
/-
  One query row of global attention, on the extended reals.

  A query row `xr` (1024 features) is projected by the input weights, `proj e = ∑ d, xr d · W e d`; its score against
  source position `s` is the inner product of the projected row with context row `s`; the scores of the 1024 source
  positions are turned into weights by a softmax that subtracts the row maximum first — `exp (score s − max)` over
  the sum of those exponentials —; the weights mix the context rows, `mix d = ∑ s, weight s · C s d`; and the output is
  `tanh` of the output projection applied to the mixed row followed by the query row, a vector of 2048 features.

  Both programs of this certificate compute exactly these functions of one row. They differ in two places only:
  • one of them takes the row maximum once more against −∞, which changes nothing (`max_negInf`);
  • the output projection's inner product over the 2048 features is written once as a single sum over the joined
    vector, once as the sum over its first 1024 features plus the sum over its last 1024 (`sum_halves`): the same
    extended real, because addition there is associative and commutative whatever the summands are (no
    finiteness is used).
-/
import Idealize.ShloMosaic.PureOps.Ideal
import Idealize.ShloMosaic.PureOps.Ideal.Laws
import Idealize.ShloMosaic.Lib.ValueIdx

noncomputable section

namespace Cert.Attention

open Idealize.ShloMosaic Idealize.ShloMosaic.ValueIdx

/-- −∞, as the value of the f32 pattern both programs start a row maximum from. -/
abbrev negInf : EReal := Ideal.ofBits .f32 0xFF800000#32

/-- The query row through the input projection: entry `e` is `∑ d, xr d · W e d`. -/
def proj (xr : Fin 1024 → EReal) (W : Fin 1024 → Fin 1024 → EReal) (e : Fin 1024) : EReal :=
  ∑ d : Fin 1024, xr d * W e d

/-- The score of source position `s`: the projected query against context row `s`. -/
def score (xr : Fin 1024 → EReal) (W C : Fin 1024 → Fin 1024 → EReal) (s : Fin 1024) : EReal :=
  ∑ d : Fin 1024, proj xr W d * C s d

/-- The maximum of a row of 1024 extended reals, folded from −∞. -/
def rowMax (f : Fin 1024 → EReal) : EReal := (Finset.univ : Finset (Fin 1024)).fold max negInf f

/-- The softmax of a row with the row maximum subtracted first: `exp (f s − max f)` over the sum of those. -/
def softmax (f : Fin 1024 → EReal) (s : Fin 1024) : EReal :=
  Ideal.div (Ideal.exp (f s - rowMax f)) (∑ s' : Fin 1024, Ideal.exp (f s' - rowMax f))

/-- The exponential of a score less the row's maximum. -/
def expo (xr : Fin 1024 → EReal) (W C : Fin 1024 → Fin 1024 → EReal) (s : Fin 1024) : EReal :=
  Ideal.exp (score xr W C s - rowMax (score xr W C))

/-- The attention weight of source position `s`: its exponential over the row's sum of exponentials. -/
def weight (xr : Fin 1024 → EReal) (W C : Fin 1024 → Fin 1024 → EReal) (s : Fin 1024) : EReal :=
  Ideal.div (expo xr W C s) (∑ s' : Fin 1024, expo xr W C s')

/-- The weights are the softmax of the scores. -/
theorem weight_eq_softmax (xr : Fin 1024 → EReal) (W C : Fin 1024 → Fin 1024 → EReal) (s : Fin 1024) :
    weight xr W C s = softmax (score xr W C) s := rfl

/-- The context rows mixed by the weights: feature `d` is `∑ s, weight s · C s d`. -/
def mix (xr : Fin 1024 → EReal) (W C : Fin 1024 → Fin 1024 → EReal) (d : Fin 1024) : EReal :=
  ∑ s : Fin 1024, weight xr W C s * C s d

/-- Feature `f` of the first half of a vector of 2048 features. -/
def loHalf (f : Fin 1024) : Fin 2048 := ⟨f.val, by omega⟩
/-- Feature `f` of the second half. -/
def hiHalf (f : Fin 1024) : Fin 2048 := ⟨1024 + f.val, by omega⟩

/-- The attentional output: `tanh` of the output projection of the mixed row followed by the query row, the
    projection's inner product split at the join. -/
def attend (xr : Fin 1024 → EReal) (W C : Fin 1024 → Fin 1024 → EReal) (Wo : Fin 1024 → Fin 2048 → EReal)
    (d : Fin 1024) : EReal :=
  Ideal.tanh ((∑ f : Fin 1024, mix xr W C f * Wo d (loHalf f)) + ∑ f : Fin 1024, xr f * Wo d (hiHalf f))

/-- −∞ is the least extended real: a maximum against it is the other argument. -/
theorem max_negInf (y : EReal) : max negInf y = y := by
  show max (Ideal.ofBits .f32 0xFF800000#32) y = y
  simp [Ideal.ofBits, Ideal.ieee]

/-- A sum over 2048 features is the sum over the first 1024 plus the sum over the last 1024. -/
theorem sum_halves (g : Fin 2048 → EReal) :
    ∑ k : Fin 2048, g k = (∑ f : Fin 1024, g (loHalf f)) + ∑ f : Fin 1024, g (hiHalf f) :=
  Fin.sum_univ_add (M := EReal) (a := 1024) (b := 1024) g

/-! ## The arrays

The inputs are 32 batches of 1024 query rows and 32 batches of 1024 context rows, 1024 features each, and two weight
arrays. Both results are laid out time-major: entry `(t, b, ·)` belongs to query row `t` of batch `b`. -/

/-- Query row `t` of batch `b`. -/
def qrow (x : (⟨3, ![32, 1024, 1024]⟩ : Shape).Idx → EReal) (b : Fin 32) (t : Fin 1024) : Fin 1024 → EReal :=
  fun d => x (ix3 b t d)

/-- The context rows of batch `b`: row `s`, feature `d`. -/
def crows (c : (⟨3, ![32, 1024, 1024]⟩ : Shape).Idx → EReal) (b : Fin 32) : Fin 1024 → Fin 1024 → EReal :=
  fun s d => c (ix3 b s d)

/-- The input projection's weights by output and input feature. -/
def matIn (W : (⟨2, ![1024, 1024]⟩ : Shape).Idx → EReal) : Fin 1024 → Fin 1024 → EReal := fun e d => W (ix2 e d)

/-- The output projection's weights by output feature and joined input feature. -/
def matOut (Wo : (⟨2, ![1024, 2048]⟩ : Shape).Idx → EReal) : Fin 1024 → Fin 2048 → EReal := fun d f => Wo (ix2 d f)

/-- The attention weights, time-major: entry `(t, b, s)` is the weight row `t` of batch `b` gives source position `s`. -/
def alignArr (x c : (⟨3, ![32, 1024, 1024]⟩ : Shape).Idx → EReal) (W : (⟨2, ![1024, 1024]⟩ : Shape).Idx → EReal) :
    (⟨3, ![1024, 32, 1024]⟩ : Shape).Idx → EReal :=
  fun i => weight (qrow x (i 1) (i 0)) (matIn W) (crows c (i 1)) (i 2)

/-- The attentional outputs, time-major: entry `(t, b, d)` is feature `d` of the output for row `t` of batch `b`. -/
def attnArr (x c : (⟨3, ![32, 1024, 1024]⟩ : Shape).Idx → EReal) (W : (⟨2, ![1024, 1024]⟩ : Shape).Idx → EReal)
    (Wo : (⟨2, ![1024, 2048]⟩ : Shape).Idx → EReal) : (⟨3, ![1024, 32, 1024]⟩ : Shape).Idx → EReal :=
  fun i => attend (qrow x (i 1) (i 0)) (matIn W) (crows c (i 1)) (matOut Wo) (i 2)

end Cert.Attention

end
-- ==== Proof.RefAttention.lean ====
/-
  The reference program's two results are the attention arrays of the specification.

  Its operations are read one at a time, at an index: the two inner products that give the scores; the row maximum
  (a fold of `max` from −∞, taken once more against −∞, which changes nothing); the exponentials of the scores less
  the maximum; their row sum from zero; the quotient; the weighted mix of the context rows; the mixed row joined with
  the query row into 2048 features; the output projection as ONE inner product over those 2048 features, which is the
  sum over the first half plus the sum over the second half; the hyperbolic tangent; and the exchange of the first
  two axes that makes both results time-major.
-/
import proofs.«112504_j24326694765263_2_alg».proof.Proof.Gen.ReferenceIdeal.Read
import proofs.«112504_j24326694765263_2_alg».proof.Proof.AttentionSpec

noncomputable section

namespace Cert.ReferenceIdeal.RefValue

open Cert.ReferenceIdeal Cert.ReferenceIdeal.Gen Cert.ReferenceIdeal.Read Idealize.ShloMosaic Idealize.ShloMosaic.ValueIdx Cert.Attention

variable (x c : (⟨S32x1024x1024, .f32⟩ : BufTy).Contents (Elt Ideal)) (W : (⟨S1024x1024, .f32⟩ : BufTy).Contents (Elt Ideal))
  (Wo : (⟨S1024x2048, .f32⟩ : BufTy).Contents (Elt Ideal))

/-- The projected query: the first inner product at `(b, t, e)`. -/
theorem proj_at (b : Fin 32) (t e : Fin 1024) :
    val_main_v0 (F := Ideal) x W (ix3 b t e) = proj (qrow x b t) (matIn W) e := by
  rw [val_main_v0_apply]
  show _ = ∑ d : Fin 1024, qrow x b t d * matIn W e d
  refine Finset.sum_congr rfl fun k _ => ?_
  have hl : lidx_main_v0 (ix3 b t e) k = ix3 b t k := funext fun a => Fin.ext (by
    match a with | ⟨0, _⟩ => rfl | ⟨1, _⟩ => rfl | ⟨2, _⟩ => rfl)
  have hr : ridx_main_v0 (ix3 b t e) k = ix2 e k := funext fun a => Fin.ext (by
    match a with | ⟨0, _⟩ => rfl | ⟨1, _⟩ => rfl)
  rw [hl, hr]; rfl

/-- The scores: the second inner product at `(b, t, s)`. -/
theorem score_at (b : Fin 32) (t s : Fin 1024) :
    val_main_v1 (F := Ideal) x c W (ix3 b t s) = score (qrow x b t) (matIn W) (crows c b) s := by
  rw [val_main_v1_apply]
  show _ = ∑ d : Fin 1024, proj (qrow x b t) (matIn W) d * crows c b s d
  refine Finset.sum_congr rfl fun k _ => ?_
  have hl : lidx_main_v1 (ix3 b t s) k = ix3 b t k := funext fun a => Fin.ext (by
    match a with | ⟨0, _⟩ => rfl | ⟨1, _⟩ => rfl | ⟨2, _⟩ => rfl)
  have hr : ridx_main_v1 (ix3 b t s) k = ix3 b s k := funext fun a => Fin.ext (by
    match a with | ⟨0, _⟩ => rfl | ⟨1, _⟩ => rfl | ⟨2, _⟩ => rfl)
  rw [hl, hr, proj_at]; rfl

/-- The row maximum: the fold of `max` from −∞ over the source positions of row `(b, t)`. -/
theorem max_at (b : Fin 32) (t : Fin 1024) :
    val_main_v2 (F := Ideal) x c W (ix2 b t) = rowMax (score (qrow x b t) (matIn W) (crows c b)) := by
  unfold val_main_v2
  have h : S32x1024x1024.Reduces [2] S32x1024 := by decide
  rw [Host.reduce_eq_fold_single FloatOps.maximumf _ _ reducesTo_S32x1024x1024_S32x1024_d2 h h_S_]
  have hf : (val_main_v1 (F := Ideal) x c W ∘ h.lift (ix2 b t)) = score (qrow x b t) (matIn W) (crows c b) := by
    funext k
    have hk : h.lift (ix2 b t) k = ix3 b t (⟨k.val, k.isLt⟩ : Fin 1024) := funext fun a => Fin.ext (by
      match a with | ⟨0, _⟩ => rfl | ⟨1, _⟩ => rfl | ⟨2, _⟩ => rfl)
    show val_main_v1 (F := Ideal) x c W (h.lift (ix2 b t) k) = _
    rw [hk, score_at]
    rfl
  rw [hf]
  rfl

/-- Taken once more against −∞ it is the same maximum. -/
theorem max'_at (b : Fin 32) (t : Fin 1024) :
    val_main_v4 (F := Ideal) x c W (ix2 b t) = rowMax (score (qrow x b t) (matIn W) (crows c b)) := by
  rw [val_main_v4_apply, val_main_v3_apply, val_main_cst_0_apply, max_at]
  exact max_negInf _

/-- The exponentials at `(b, t, s)`. -/
theorem expo_at (b : Fin 32) (t s : Fin 1024) :
    val_main_v8 (F := Ideal) x c W (ix3 b t s) = expo (qrow x b t) (matIn W) (crows c b) s := by
  rw [val_main_v8_apply, val_main_v7_apply, val_main_v6_apply, val_main_v5_apply, score_at]
  have hi : idx_main_v5 (idx_main_v6 (ix3 b t s)) = ix2 b t := funext fun a => Fin.ext (by
    match a with | ⟨0, _⟩ => rfl | ⟨1, _⟩ => rfl)
  rw [hi, max'_at]; rfl

/-- The row sum of the exponentials, from zero. -/
theorem denom_at (b : Fin 32) (t : Fin 1024) :
    val_main_v9 (F := Ideal) x c W (ix2 b t) = ∑ s : Fin 1024, expo (qrow x b t) (matIn W) (crows c b) s := by
  rw [val_main_v9_apply, val_main_cst_1_apply]
  show Ideal.ofBits .f32 0x00000000#32 + _ = _
  rw [Ideal.ofBits_zero_f32, zero_add]
  refine Finset.sum_congr rfl fun k _ => ?_
  have hi : idx_main_v9 (ix2 b t) k = ix3 b t k := funext fun a => Fin.ext (by
    match a with | ⟨0, _⟩ => rfl | ⟨1, _⟩ => rfl | ⟨2, _⟩ => rfl)
  rw [hi, expo_at]

/-- The attention weights at `(b, t, s)`. -/
theorem weight_at (b : Fin 32) (t s : Fin 1024) :
    val_main_v12 (F := Ideal) x c W (ix3 b t s) = weight (qrow x b t) (matIn W) (crows c b) s := by
  rw [val_main_v12_apply, val_main_v11_apply, val_main_v10_apply, expo_at]
  have hi : idx_main_v10 (idx_main_v11 (ix3 b t s)) = ix2 b t := funext fun a => Fin.ext (by
    match a with | ⟨0, _⟩ => rfl | ⟨1, _⟩ => rfl)
  rw [hi, denom_at]; rfl

/-- The mixed context row at `(b, t, d)`. -/
theorem mix_at (b : Fin 32) (t d : Fin 1024) :
    val_main_v13 (F := Ideal) x c W (ix3 b t d) = mix (qrow x b t) (matIn W) (crows c b) d := by
  rw [val_main_v13_apply]
  show _ = ∑ s : Fin 1024, weight (qrow x b t) (matIn W) (crows c b) s * crows c b s d
  refine Finset.sum_congr rfl fun k _ => ?_
  have hl : lidx_main_v13 (ix3 b t d) k = ix3 b t k := funext fun a => Fin.ext (by
    match a with | ⟨0, _⟩ => rfl | ⟨1, _⟩ => rfl | ⟨2, _⟩ => rfl)
  have hr : ridx_main_v13 (ix3 b t d) k = ix3 b k d := funext fun a => Fin.ext (by
    match a with | ⟨0, _⟩ => rfl | ⟨1, _⟩ => rfl | ⟨2, _⟩ => rfl)
  rw [hl, hr, weight_at]; rfl

/-- The joined vector's first half is the mixed row. -/
theorem join_lo (b : Fin 32) (t f : Fin 1024) :
    val_main_v14 (F := Ideal) x c W (ix3 b t (loHalf f)) = mix (qrow x b t) (matIn W) (crows c b) f := by
  unfold val_main_v14
  rw [concatenate_pair_apply_left (2 : Fin S32x1024x2048.rank) _ _ concatenates_S32x1024x1024_S32x1024x1024_S32x1024x2048_d2
    (ix3 b t (loHalf f)) rfl (ix3 b t f) (fun a => by match a with | ⟨0, _⟩ => rfl | ⟨1, _⟩ => rfl | ⟨2, _⟩ => rfl)]
  exact mix_at x c W b t f

/-- Its second half is the query row. -/
theorem join_hi (b : Fin 32) (t f : Fin 1024) :
    val_main_v14 (F := Ideal) x c W (ix3 b t (hiHalf f)) = qrow x b t f := by
  unfold val_main_v14
  rw [concatenate_pair_apply_right (2 : Fin S32x1024x2048.rank) _ _ concatenates_S32x1024x1024_S32x1024x1024_S32x1024x2048_d2
    (ix3 b t (hiHalf f)) rfl rfl (ix3 b t f)
    (fun a ha => by match a with | ⟨0, _⟩ => rfl | ⟨1, _⟩ => rfl | ⟨2, _⟩ => exact absurd rfl ha)
    (by show f.val + 1024 = 1024 + f.val; omega)]
  rfl

/-- The attentional output before the exchange of axes, at `(b, t, d)`: the one inner product over 2048 features
    split at the join. -/
theorem attend_at (b : Fin 32) (t d : Fin 1024) :
    val_main_v16 (F := Ideal) x c W Wo (ix3 b t d) = attend (qrow x b t) (matIn W) (crows c b) (matOut Wo) d := by
  rw [val_main_v16_apply, val_main_v15_apply]
  show Ideal.tanh _ = Ideal.tanh _
  congr 1
  have hl : ∀ k : Fin 2048, lidx_main_v15 (ix3 b t d) k = ix3 b t k := fun k => funext fun a => Fin.ext (by
    match a with | ⟨0, _⟩ => rfl | ⟨1, _⟩ => rfl | ⟨2, _⟩ => rfl)
  have hr : ∀ k : Fin 2048, ridx_main_v15 (ix3 b t d) k = ix2 d k := fun k => funext fun a => Fin.ext (by
    match a with | ⟨0, _⟩ => rfl | ⟨1, _⟩ => rfl)
  simp only [hl, hr]
  rw [sum_halves]
  congr 1
  · exact Finset.sum_congr rfl fun f _ => by rw [join_lo]; rfl
  · exact Finset.sum_congr rfl fun f _ => by rw [join_hi]; rfl

/-- The first result is the specification's array of attentional outputs. -/
theorem attn_eq : val_main_v17 (F := Ideal) x c W Wo = attnArr x c W Wo := by
  funext i
  rw [val_main_v17_apply]
  have hi : idx_main_v17 i = ix3 (⟨(i 1).val, (i 1).isLt⟩ : Fin 32) (⟨(i 0).val, (i 0).isLt⟩ : Fin 1024)
      (⟨(i 2).val, (i 2).isLt⟩ : Fin 1024) := funext fun a => Fin.ext (by
    match a with | ⟨0, _⟩ => rfl | ⟨1, _⟩ => rfl | ⟨2, _⟩ => rfl)
  rw [hi, attend_at]; rfl

/-- The second result is the specification's array of attention weights. -/
theorem align_eq : val_main_v18 (F := Ideal) x c W = alignArr x c W := by
  funext i
  rw [val_main_v18_apply]
  have hi : idx_main_v18 i = ix3 (⟨(i 1).val, (i 1).isLt⟩ : Fin 32) (⟨(i 0).val, (i 0).isLt⟩ : Fin 1024)
      (⟨(i 2).val, (i 2).isLt⟩ : Fin 1024) := funext fun a => Fin.ext (by
    match a with | ⟨0, _⟩ => rfl | ⟨1, _⟩ => rfl | ⟨2, _⟩ => rfl)
  rw [hi, weight_at]; rfl

end Cert.ReferenceIdeal.RefValue

end
-- ==== Proof.LibKeepdims.lean ====
/-
  Column layouts and a lane sum read at an index.

  A sum over the last axis that keeps its dimension leaves a column: the [a] vector of row sums viewed as [a, 1],
  then spread along the rows of an [a, b] array. Read at `(p, c)` that array holds the sum of row `p`, whatever the
  column `c`. The lemmas here say so one layout step at a time, for every extent:
  • `shapeCast_a_a1_apply`: a vector [a] viewed as a column [a, 1] reads, at `(p, 0)`, the vector at `p`;
  • `broadcastTo_a1_ab_apply`: a column [a, 1] spread to [a, b] reads, at `(p, c)`, the column at `(p, 0)`;
  • `laneSum_apply`: over the extended reals, the sum of an [a, b] array along its last axis reads, at `p`, the
    finite sum over `k < b` of the array at `(p, k)`.
  Together with the library's row forms ([a] viewed as [1, a], a row [1, b] spread to [a, b]) these read every
  `sum(axis = -1, keepdims = True)` a kernel body broadcasts back over its block.
-/
import Idealize.ShloMosaic.Lib.Pipeline.Value
import Idealize.ShloMosaic.Lib.ValueIdx
import Idealize.ShloMosaic.PureOps.Ideal.Laws

noncomputable section

namespace Cert.Lib.Keepdims

open Idealize.ShloMosaic Idealize.ShloMosaic.ValueIdx

variable {α : Type}

/-- A vector [a] viewed as a column [a, 1]: entry `(p, u)` of the column is entry `p` of the vector (row-major
    position `p · 1 + 0 = p`). -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a, 1] spread along the rows of an [a, b] array: entry `(p, c)` is the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Over the extended reals the sum of an [a, b] array along its last axis, read at row `p`, is `∑ k < b` of the
    array at `(p, k)`: the reduced index with the summed coordinate put back is `(p, k)`. -/
theorem laneSum_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun d => Fin.ext (by
      match d with
      | ⟨0, _⟩ => rfl
      | ⟨1, _⟩ => rfl)))

end Cert.Lib.Keepdims

end
-- ==== Proof.LibRowMax.lean ====
/-
  A row maximum read at an index.

  A maximum over the last axis of an [a, b] array, read on the extended reals at row `p`, is the fold of `max`, from
  the value of the accumulator's pattern, over the `b` entries of that row: the reduced index with the dropped
  coordinate put back is `(p, k)`. With the accumulator at the pattern of −∞ — the least extended real, so that a
  maximum against it is the other argument (`max_negInf_f32`) — this is the row's maximum, as a softmax subtracts it.
  The lemmas hold for every extent.
-/
import Idealize.ShloMosaic.Lib.ValueIdx
import Idealize.ShloMosaic.PureOps.Ideal.Laws

noncomputable section

namespace Cert.Lib.RowMax

open Idealize.ShloMosaic Idealize.ShloMosaic.ValueIdx

/-- Over the extended reals the maximum of an [a, b] array along its last axis, read at row `p`, is the fold of
    `max` from the accumulator's value over `k < b` of the array at `(p, k)`. -/
theorem laneMax_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ v acc h hφ hacc (ix1 p)
      = (Finset.univ : Finset (Fin b)).fold max (Ideal.ofBits φ acc) (fun k => v (ix2 p k)) :=
  (Ideal.multiReduction_maximumf_single v acc h hφ hacc (ix1 p)).trans
    (congrArg (fun f : Fin b → EReal => (Finset.univ : Finset (Fin b)).fold max (Ideal.ofBits φ acc) f)
      (funext fun k => congrArg v (funext fun d => Fin.ext (by
        match d with
        | ⟨0, _⟩ => rfl
        | ⟨1, _⟩ => rfl))))

/-- The f32 pattern of −∞ denotes the least extended real: a maximum against it is the other argument. -/
theorem max_negInf_f32 (y : EReal) : max (Ideal.ofBits .f32 0xFF800000#32) y = y := by
  simp [Ideal.ofBits, Ideal.ieee]

end Cert.Lib.RowMax

end
-- ==== Proof.KernelBody.lean ====
/-
  What the kernel body stores, read at an index, over any loaded blocks.

  At a grid point the body holds a block of 256 query rows, the 1024 context rows of one batch, the input
  projection's weights and the two halves of the output projection's weights. Everything it computes for query row
  `p` of the block depends on that row alone:
  • a matrix product contracting the last axes of both operands, at `(p, q)`, is `∑ k, A (p, k) · B (q, k)`; the one
    that contracts the left operand's last axis with the right operand's first is `∑ k, A (p, k) · B (k, q)` — the zero
    accumulator adds nothing;
  • the row maximum is the fold of `max` from −∞ along the row, and the column it is kept in is spread back over
    the row, as is the row sum of the exponentials: the stored weights are the softmax of the row's scores;
  • a change of float format is the identity on the extended reals.
  So the first stored block is, at `(p, s)`, the attention weight of the specification for the block's row `p`, and
  the second, at `(p, d)`, the hyperbolic tangent of the two half inner products against the two halves of the output
  weights.
-/
import proofs.«112504_j24326694765263_2_alg».proof.Proof.Gen.KernelIdeal.Skeleton
import proofs.«112504_j24326694765263_2_alg».proof.Proof.AttentionSpec
import proofs.«112504_j24326694765263_2_alg».proof.Proof.LibKeepdims
import proofs.«112504_j24326694765263_2_alg».proof.Proof.LibRowMax
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx Cert.Attention Cert.Lib.Keepdims

/-! ## The two matrix products -/

theorem lhsT_0 (i : S256x1024.Idx) (q : dot_S256x1024_S1024x1024_S256x1024_1_1_0_0_n_n.contr.Idx) :
    (dot_S256x1024_S1024x1024_S256x1024_1_1_0_0_n_n.lhsIdx i q 0).val = (i 0).val := by
  unfold DotDims.lhsIdx
  rw [dif_neg (show ¬(0 : Fin S256x1024.rank) ∈ dot_S256x1024_S1024x1024_S256x1024_1_1_0_0_n_n.lhsBatch by decide),
    dif_pos (show (0 : Fin S256x1024.rank) ∈ dot_S256x1024_S1024x1024_S256x1024_1_1_0_0_n_n.lhsNonContracting by decide)]
  rfl
theorem rhsT_0 (i : S256x1024.Idx) (q : dot_S256x1024_S1024x1024_S256x1024_1_1_0_0_n_n.contr.Idx) :
    (dot_S256x1024_S1024x1024_S256x1024_1_1_0_0_n_n.rhsIdx i q 0).val = (i 1).val := by
  unfold DotDims.rhsIdx
  rw [dif_neg (show ¬(0 : Fin S1024x1024.rank) ∈ dot_S256x1024_S1024x1024_S256x1024_1_1_0_0_n_n.rhsBatch by decide),
    dif_pos (show (0 : Fin S1024x1024.rank) ∈ dot_S256x1024_S1024x1024_S256x1024_1_1_0_0_n_n.rhsNonContracting by decide)]
  rfl

/-- The product contracting both operands' last axes, into a zero accumulator, at `(p, q)`. -/
theorem mulRows_at {φ₁ φ₂ : FTy} (A : FVec Ideal S256x1024 φ₁) (B : FVec Ideal S1024x1024 φ₂) (p : Fin 256) (q : Fin 1024) :
    matmul dot_S256x1024_S1024x1024_S256x1024_1_1_0_0_n_n none A B (constant S256x1024 .f32 0x00000000#32) (ix2 p q)
      = ∑ k : Fin 1024, A (ix2 p k) * B (ix2 q k) := by
  simp only [matmul]
  rw [Ideal.matmul_constant_zero_apply, ← Equiv.sum_comp (contrEquiv1 dot_S256x1024_S1024x1024_S256x1024_1_1_0_0_n_n 1024 rfl rfl).symm]
  refine Finset.sum_congr rfl fun k _ => ?_
  have hk := contrEquiv1_symm_val dot_S256x1024_S1024x1024_S256x1024_1_1_0_0_n_n 1024 rfl rfl k
  have el : dot_S256x1024_S1024x1024_S256x1024_1_1_0_0_n_n.lhsIdx (ix2 p q) ((contrEquiv1 dot_S256x1024_S1024x1024_S256x1024_1_1_0_0_n_n 1024 rfl rfl).symm k) = ix2 p k := funext fun a => Fin.ext (by
    match a with
    | ⟨0, _⟩ => exact lhsT_0 _ _
    | ⟨1, _⟩ => exact (dot_S256x1024_S1024x1024_S256x1024_1_1_0_0_n_n.lhsIdx_val_of_single rfl _ _).trans hk)
  have er : dot_S256x1024_S1024x1024_S256x1024_1_1_0_0_n_n.rhsIdx (ix2 p q) ((contrEquiv1 dot_S256x1024_S1024x1024_S256x1024_1_1_0_0_n_n 1024 rfl rfl).symm k) = ix2 q k := funext fun a => Fin.ext (by
    match a with
    | ⟨0, _⟩ => exact rhsT_0 _ _
    | ⟨1, _⟩ => exact (dot_S256x1024_S1024x1024_S256x1024_1_1_0_0_n_n.rhsIdx_val_of_single rfl _ _).trans hk)
  rw [el, er]

theorem lhsN_0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide),
    dif_pos (show (0 : Fin S256x1024.rank) ∈ dot_S256x1024_S1024x1024_S256x1024_1_0_0_1_n_n.lhsNonContracting by decide)]
  rfl
theorem rhsN_1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide),
    dif_pos (show (1 : Fin S1024x1024.rank) ∈ dot_S256x1024_S1024x1024_S256x1024_1_0_0_1_n_n.rhsNonContracting by decide)]
  rfl

/-- The product contracting the left operand's last axis with the right operand's first, at `(p, q)`. -/
theorem mulCols_at {φ₁ φ₂ : FTy} (A : FVec Ideal S256x1024 φ₁) (B : FVec Ideal S1024x1024 φ₂) (p : Fin 256) (q : Fin 1024) :
    matmul dot_S256x1024_S1024x1024_S256x1024_1_0_0_1_n_n none A B (constant S256x1024 .f32 0x00000000#32) (ix2 p q)
      = ∑ k : Fin 1024, A (ix2 p k) * B (ix2 k q) := by
  simp only [matmul]
  rw [Ideal.matmul_constant_zero_apply, ← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 p q) ((contrEquiv1 dot_S256x1024_S1024x1024_S256x1024_1_0_0_1_n_n 1024 rfl rfl).symm k) = ix2 p k := funext fun a => Fin.ext (by
    match a with
    | ⟨0, _⟩ => exact lhsN_0 _ _
    | ⟨1, _⟩ => exact (dot_S256x1024_S1024x1024_S256x1024_1_0_0_1_n_n.lhsIdx_val_of_single rfl _ _).trans hk)
  have er : dot_S256x1024_S1024x1024_S256x1024_1_0_0_1_n_n.rhsIdx (ix2 p q) ((contrEquiv1 dot_S256x1024_S1024x1024_S256x1024_1_0_0_1_n_n 1024 rfl rfl).symm k) = ix2 k q := funext fun a => Fin.ext (by
    match a with
    | ⟨0, _⟩ => exact (dot_S256x1024_S1024x1024_S256x1024_1_0_0_1_n_n.rhsIdx_val_of_single rfl _ _).trans hk
    | ⟨1, _⟩ => exact rhsN_1 _ _)
  rw [el, er]

/-! ## The softmax of a block's rows -/

/-- The maximum along the last axis of a [256, 1024] block, at row `p`: the fold of `max` from −∞ along the row. -/
theorem laneMax_at (v : FVec Ideal S256x1024 .f32) (h : S256x1024.Reduces [1] S256) (hφ : FKind.Formats .f32)
    (hacc : (0xFF800000#32 : BitVec FTy.f32.bits) = FKind.maximumf.neutral .f32 hφ) (p : Fin 256) :
    multiReduction .maximumf [1] S256 v 0xFF800000#32 h hφ hacc (ix1 p) = rowMax fun k => v (ix2 p k) :=
  Cert.Lib.RowMax.laneMax_apply v 0xFF800000#32 h hφ hacc p

/-- Subtract the kept row maximum, exponentiate, divide by the kept row sum: at `(p, s)` the softmax of row `p`. -/
theorem softmax_at (A : FVec Ideal S256x1024 .f32) (hr : S256x1024.Reduces [1] S256) (hc : S256.ShapeCasts S256x1)
    (hb : S256x1.Broadcasts S256x1024) (hφ : FKind.Formats .f32)
    (hmax : (0xFF800000#32 : BitVec FTy.f32.bits) = FKind.maximumf.neutral .f32 hφ)
    (hadd : (0x00000000#32 : BitVec FTy.f32.bits) = FKind.add.neutral .f32 hφ) (p : Fin 256) (s : Fin 1024) :
    divf (exp (subf A (broadcastTo S256x1024 (shapeCast S256x1 (multiReduction .maximumf [1] S256 A 0xFF800000#32 hr hφ hmax) hc) hb)))
      (broadcastTo S256x1024 (shapeCast S256x1 (multiReduction .add [1] S256
        (exp (subf A (broadcastTo S256x1024 (shapeCast S256x1 (multiReduction .maximumf [1] S256 A 0xFF800000#32 hr hφ hmax) hc) hb)))
        0x00000000#32 hr hφ hadd) hc) hb) (ix2 p s)
      = softmax (fun k => A (ix2 p k)) s := by
  have hm : ∀ q : Fin 1024, (broadcastTo S256x1024 (shapeCast S256x1 (multiReduction .maximumf [1] S256 A 0xFF800000#32 hr hφ hmax) hc) hb) (ix2 p q)
      = rowMax fun k => A (ix2 p k) := fun q =>
    (broadcastTo_a1_ab_apply _ hb p q).trans ((shapeCast_a_a1_apply _ hc p 0).trans (laneMax_at A hr hφ hmax p))
  have he : ∀ q : Fin 1024, (exp (subf A (broadcastTo S256x1024 (shapeCast S256x1 (multiReduction .maximumf [1] S256 A 0xFF800000#32 hr hφ hmax) hc) hb))
      : FVec Ideal S256x1024 .f32) (ix2 p q) = Ideal.exp (A (ix2 p q) - rowMax fun k => A (ix2 p k)) := fun q =>
    congrArg (fun m => Ideal.exp (A (ix2 p q) - m)) (hm q)
  have hd : (broadcastTo S256x1024 (shapeCast S256x1 (multiReduction .add [1] S256
        (exp (subf A (broadcastTo S256x1024 (shapeCast S256x1 (multiReduction .maximumf [1] S256 A 0xFF800000#32 hr hφ hmax) hc) hb)))
        0x00000000#32 hr hφ hadd) hc) hb) (ix2 p s)
      = ∑ k : Fin 1024, Ideal.exp (A (ix2 p k) - rowMax fun k => A (ix2 p k)) :=
    (broadcastTo_a1_ab_apply _ hb p s).trans ((shapeCast_a_a1_apply _ hc p 0).trans
      ((laneSum_apply _ _ hr hφ hadd p).trans (Finset.sum_congr rfl fun k _ => he k)))
  show Ideal.div _ _ = Ideal.div _ _
  rw [he s, hd]

/-! ## The stored blocks -/

/-- The block of query rows with its unit axis dropped (a format change is the identity). -/
theorem rows_at (v0 : Vec Ideal S1x256x1024 .f32) (p : Fin 256) (d : Fin 1024) :
    k0_pay1 v0 (ix2 p d) = v0 (ix3 0 p d) := by
  unfold k0_pay1
  show shapeCast S256x1024 v0 _ (ix2 p d) = _
  refine shapeCast_apply v0 _ (ix2 p d) (ix3 0 p d) ?_
  rw [Shape.rowMajor_val_three, Shape.rowMajor_val_two]
  show ((0 : Fin 1).val * 256 + p.val) * 1024 + d.val = p.val * 1024 + d.val
  simp

/-- The block of context rows with its unit axis dropped. -/
theorem ctx_at (v3 : Vec Ideal S1x1024x1024 .f32) (s d : Fin 1024) :
    k0_pay2 v3 (ix2 s d) = v3 (ix3 0 s d) := by
  unfold k0_pay2
  show shapeCast S1024x1024 v3 _ (ix2 s d) = _
  refine shapeCast_apply v3 _ (ix2 s d) (ix3 0 s d) ?_
  rw [Shape.rowMajor_val_three, Shape.rowMajor_val_two]
  show ((0 : Fin 1).val * 1024 + s.val) * 1024 + d.val = s.val * 1024 + d.val
  simp

/-- The query row `p` of a block. -/
def brow (v0 : Vec Ideal S1x256x1024 .f32) (p : Fin 256) : Fin 1024 → EReal := fun d => v0 (ix3 0 p d)
/-- The context rows of a block. -/
def bctx (v3 : Vec Ideal S1x1024x1024 .f32) : Fin 1024 → Fin 1024 → EReal := fun s d => v3 (ix3 0 s d)
/-- A [1024, 1024] weight block by row and column. -/
def bmat (v : Vec Ideal S1024x1024 .bf16) : Fin 1024 → Fin 1024 → EReal := fun e d => v (ix2 e d)

/-- The scores of the block's row `p`: the two products, one after the other. -/
theorem score_at (v0 : Vec Ideal S1x256x1024 .f32) (v3 : Vec Ideal S1x1024x1024 .f32) (v6 : Vec Ideal S1024x1024 .bf16)
    (p : Fin 256) (s : Fin 1024) :
    matmul dot_S256x1024_S1024x1024_S256x1024_1_1_0_0_n_n none
      (truncf .bf16 (matmul dot_S256x1024_S1024x1024_S256x1024_1_1_0_0_n_n none (k0_pay1 v0)
        (shapeCast S1024x1024 v6 shapeCasts_S1024x1024_S1024x1024 : FVec Ideal S1024x1024 .bf16) (constant S256x1024 .f32 0x00000000#32)) bitsLt_bf16_f32)
      (k0_pay2 v3) (constant S256x1024 .f32 0x00000000#32) (ix2 p s)
      = score (brow v0 p) (bmat v6) (bctx v3) s := by
  refine (mulRows_at _ _ p s).trans ?_
  refine Finset.sum_congr rfl fun d _ => ?_
  refine congrArg₂ (· * ·) ?_ (ctx_at v3 s d)
  show matmul dot_S256x1024_S1024x1024_S256x1024_1_1_0_0_n_n none (k0_pay1 v0) _ _ (ix2 p d) = _
  refine (mulRows_at _ _ p d).trans ?_
  refine Finset.sum_congr rfl fun e _ => ?_
  rw [rows_at, shapeCast_self]
  rfl

/-- The first stored block: the attention weights of the block's row `p`. -/
theorem weights_at (v0 : Vec Ideal S1x256x1024 .f32) (v3 : Vec Ideal S1x1024x1024 .f32) (v6 : Vec Ideal S1024x1024 .bf16)
    (p : Fin 256) (s : Fin 1024) :
    k0_pay3 v0 v3 v6 (ix2 p s) = weight (brow v0 p) (bmat v6) (bctx v3) s := by
  unfold k0_pay3
  refine (softmax_at _ _ _ _ _ _ _ p s).trans ?_
  show softmax _ s = softmax (score (brow v0 p) (bmat v6) (bctx v3)) s
  exact congrArg (fun f => softmax f s) (funext fun k => score_at v0 v3 v6 p k)

/-- The second stored block: `tanh` of the half inner product of the mixed row against the first weight half plus
    that of the query row against the second. -/
theorem outputs_at (v0 : Vec Ideal S1x256x1024 .f32) (v3 : Vec Ideal S1x1024x1024 .f32) (v6 v24 v26 : Vec Ideal S1024x1024 .bf16)
    (p : Fin 256) (d : Fin 1024) :
    k0_pay4 v0 v3 v6 v24 v26 (ix2 p d)
      = Ideal.tanh ((∑ f : Fin 1024, mix (brow v0 p) (bmat v6) (bctx v3) f * v24 (ix2 d f))
          + ∑ f : Fin 1024, brow v0 p f * v26 (ix2 d f)) := by
  unfold k0_pay4
  show Ideal.tanh (_ + _) = _
  congr 2
  · refine (mulRows_at _ _ p d).trans ?_
    refine Finset.sum_congr rfl fun f _ => ?_
    rw [shapeCast_self]
    refine congrArg (· * v24 (ix2 d f)) ?_
    show matmul dot_S256x1024_S1024x1024_S256x1024_1_0_0_1_n_n none _ (k0_pay2 v3) _ (ix2 p f) = _
    refine (mulCols_at _ _ p f).trans ?_
    refine Finset.sum_congr rfl fun s _ => ?_
    exact congrArg₂ (· * ·) (weights_at v0 v3 v6 p s) (ctx_at v3 s f)
  · refine (mulRows_at _ _ p d).trans ?_
    refine Finset.sum_congr rfl fun f _ => ?_
    rw [rows_at, shapeCast_self]
    rfl

end Cert.KernelIdeal.Body

end
-- ==== Proof.AttentionLayout.lean ====
/-
  The flattened layout of the two results.

  The kernel writes each result as a [1024, 32 · 1024] array: row `t` is query position `t`, and column
  `b · 1024 + s` belongs to batch `b`, entry `s`. Viewing that array as [1024, 32, 1024] keeps every entry's row-major
  position, `t · 32768 + (b · 1024 + s) = (t · 32 + b) · 1024 + s`, so entry `(t, b, s)` of the view is entry
  `(t, b · 1024 + s)` of the flat array: the time-major arrays of the specification.
-/
import proofs.«112504_j24326694765263_2_alg».proof.Proof.AttentionSpec
import Idealize.ShloMosaic.Lib.Pipeline.Value

noncomputable section

namespace Cert.Attention

open Idealize.ShloMosaic Idealize.ShloMosaic.ValueIdx

/-- The batch a flat column belongs to. -/
def colBatch (j : Fin 32768) : Fin 32 := ⟨j.val / 1024, by omega⟩
/-- Its entry within the batch. -/
def colPos (j : Fin 32768) : Fin 1024 := ⟨j.val % 1024, by omega⟩
/-- The flat column of entry `s` of batch `b`. -/
def colOf (b : Fin 32) (s : Fin 1024) : Fin 32768 := ⟨b.val * 1024 + s.val, by omega⟩

theorem colBatch_colOf (b : Fin 32) (s : Fin 1024) : colBatch (colOf b s) = b :=
  Fin.ext (by show (b.val * 1024 + s.val) / 1024 = b.val; omega)
theorem colPos_colOf (b : Fin 32) (s : Fin 1024) : colPos (colOf b s) = s :=
  Fin.ext (by show (b.val * 1024 + s.val) % 1024 = s.val; omega)

/-- The attention weights, flattened. -/
def alignFlat (x c : (⟨3, ![32, 1024, 1024]⟩ : Shape).Idx → EReal) (W : (⟨2, ![1024, 1024]⟩ : Shape).Idx → EReal) :
    (⟨2, ![1024, 32768]⟩ : Shape).Idx → EReal :=
  fun i => weight (qrow x (colBatch (i 1)) (i 0)) (matIn W) (crows c (colBatch (i 1))) (colPos (i 1))

/-- The attentional outputs, flattened. -/
def attnFlat (x c : (⟨3, ![32, 1024, 1024]⟩ : Shape).Idx → EReal) (W : (⟨2, ![1024, 1024]⟩ : Shape).Idx → EReal)
    (Wo : (⟨2, ![1024, 2048]⟩ : Shape).Idx → EReal) : (⟨2, ![1024, 32768]⟩ : Shape).Idx → EReal :=
  fun i => attend (qrow x (colBatch (i 1)) (i 0)) (matIn W) (crows c (colBatch (i 1))) (matOut Wo) (colPos (i 1))

theorem alignFlat_at (x c : (⟨3, ![32, 1024, 1024]⟩ : Shape).Idx → EReal) (W : (⟨2, ![1024, 1024]⟩ : Shape).Idx → EReal)
    (t : Fin 1024) (b : Fin 32) (s : Fin 1024) :
    alignFlat x c W (ix2 t (colOf b s)) = weight (qrow x b t) (matIn W) (crows c b) s := by
  show weight (qrow x (colBatch (colOf b s)) t) (matIn W) (crows c (colBatch (colOf b s))) (colPos (colOf b s)) = _
  rw [colBatch_colOf, colPos_colOf]

theorem attnFlat_at (x c : (⟨3, ![32, 1024, 1024]⟩ : Shape).Idx → EReal) (W : (⟨2, ![1024, 1024]⟩ : Shape).Idx → EReal)
    (Wo : (⟨2, ![1024, 2048]⟩ : Shape).Idx → EReal) (t : Fin 1024) (b : Fin 32) (d : Fin 1024) :
    attnFlat x c W Wo (ix2 t (colOf b d)) = attend (qrow x b t) (matIn W) (crows c b) (matOut Wo) d := by
  show attend (qrow x (colBatch (colOf b d)) t) (matIn W) (crows c (colBatch (colOf b d))) (matOut Wo) (colPos (colOf b d)) = _
  rw [colBatch_colOf, colPos_colOf]

/-- The flat array of weights viewed as [1024, 32, 1024] is the time-major array. -/
theorem reshape_align (x c : (⟨3, ![32, 1024, 1024]⟩ : Shape).Idx → EReal) (W : (⟨2, ![1024, 1024]⟩ : Shape).Idx → EReal)
    (h : (⟨2, ![1024, 32768]⟩ : Shape).ShapeCasts ⟨3, ![1024, 32, 1024]⟩) :
    shapeCast ⟨3, ![1024, 32, 1024]⟩ (alignFlat x c W) h = alignArr x c W := by
  funext i
  obtain ⟨t, b, s, rfl⟩ : ∃ (t : Fin 1024) (b : Fin 32) (s : Fin 1024), i = ix3 t b s := ⟨i 0, i 1, i 2, eq_ix3 i⟩
  refine (shapeCast_apply _ h (ix3 t b s) (ix2 t (colOf b s)) ?_).trans (alignFlat_at x c W t b s)
  rw [Shape.rowMajor_val_two, Shape.rowMajor_val_three]
  show t.val * 32768 + (b.val * 1024 + s.val) = (t.val * 32 + b.val) * 1024 + s.val
  omega

/-- The flat array of outputs viewed as [1024, 32, 1024] is the time-major array. -/
theorem reshape_attn (x c : (⟨3, ![32, 1024, 1024]⟩ : Shape).Idx → EReal) (W : (⟨2, ![1024, 1024]⟩ : Shape).Idx → EReal)
    (Wo : (⟨2, ![1024, 2048]⟩ : Shape).Idx → EReal) (h : (⟨2, ![1024, 32768]⟩ : Shape).ShapeCasts ⟨3, ![1024, 32, 1024]⟩) :
    shapeCast ⟨3, ![1024, 32, 1024]⟩ (attnFlat x c W Wo) h = attnArr x c W Wo := by
  funext i
  obtain ⟨t, b, d, rfl⟩ : ∃ (t : Fin 1024) (b : Fin 32) (d : Fin 1024), i = ix3 t b d := ⟨i 0, i 1, i 2, eq_ix3 i⟩
  refine (shapeCast_apply _ h (ix3 t b d) (ix2 t (colOf b d)) ?_).trans (attnFlat_at x c W Wo t b d)
  rw [Shape.rowMajor_val_two, Shape.rowMajor_val_three]
  show t.val * 32768 + (b.val * 1024 + d.val) = (t.val * 32 + b.val) * 1024 + d.val
  omega

end Cert.Attention

end
-- ==== Proof.KernelArrays.lean ====
/-
  The two arrays the kernel's region leaves: the flattened attention weights and the flattened outputs.

  The grid has a point per batch `b` and tile `q` of 256 query rows. At that point the body sees rows
  `q · 256 … q · 256 + 255` of batch `b`'s queries, all of batch `b`'s context rows and both weight arrays whole, and
  writes, of each flat result, the block of rows `q · 256 …` and columns `b · 1024 … b · 1024 + 1023`. Each entry of a
  stored block is the specification's value for its own query row (the body's arithmetic, read at an index), so the
  block is the restriction of ONE whole-array function; the 32 · 4 blocks tile the array, hence the array ends at
  that function.
-/
import proofs.«112504_j24326694765263_2_alg».proof.Proof.Gen.KernelIdeal.Frame
import proofs.«112504_j24326694765263_2_alg».proof.Proof.KernelBody
import proofs.«112504_j24326694765263_2_alg».proof.Proof.AttentionLayout

set_option maxRecDepth 16384

noncomputable section

namespace Cert.KernelIdeal.Arrays

open Cert.KernelIdeal Cert.KernelIdeal.Gen Cert.KernelIdeal.Body Idealize.ShloMosaic Idealize.ShloMosaic.ValueIdx
open Idealize.ShloMosaic.TcCoe Idealize.SL.Sem Cert.Attention
open Idealize.ShloMosaic.Pipeline (Dat)

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the grid: the query block's batch and row tile are the output blocks' column and row
    block; the context block is the same batch, whole; the weights are whole; both outputs move together. -/
theorem idx_facts : ∀ t : Fin cfg0.N,
    win0_0.index t (0 : Fin 3) = win0_5.index t (1 : Fin 2)
    ∧ win0_0.index t (1 : Fin 3) = win0_5.index t (0 : Fin 2)
    ∧ win0_0.index t (2 : Fin 3) = 0
    ∧ win0_1.index t (0 : Fin 3) = win0_5.index t (1 : Fin 2)
    ∧ win0_1.index t (1 : Fin 3) = 0
    ∧ win0_1.index t (2 : Fin 3) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = win0_5.index t (0 : Fin 2)
    ∧ win0_4.index t (1 : Fin 2) = win0_5.index t (1 : Fin 2)
    ∧ win0_5.index t (0 : Fin 2) ≤ 3
    ∧ win0_5.index t (1 : Fin 2) ≤ 31 :=
  (by decide +kernel : ∀ t : Fin grid0.N, _)

/-- Every (row tile, batch) pair is some point's. -/
theorem idx_onto : ∀ (q : Fin 4) (b : Fin 32), ∃ t : Fin cfg0.N, win0_5.index t = ![q.val, b.val] ∧ win0_4.index t = ![q.val, b.val] :=
  (by decide +kernel : ∀ (q : Fin 4) (b : Fin 32), ∃ t : Fin grid0.N, win0_5.index t = ![q.val, b.val] ∧ win0_4.index t = ![q.val, b.val])

/-! ## The input blocks are the arrays read where the output block says -/

/-- Row `p` of the query block at point `t` is query row `q · 256 + p` of batch `b`. -/
theorem qblock_row (c : Dev nD) (t : Fin cfg0.N) (b : Fin 32) (q : Fin 4) (p : Fin 256)
    (hb : win0_5.index t (1 : Fin 2) = b.val) (hq : win0_5.index t (0 : Fin 2) = q.val) :
    brow (iblk m c 0 t) p = qrow (V m c main_arg0) b (⟨q.val * 256 + p.val, by omega⟩ : Fin 1024) := by
  obtain ⟨e0, e1, e2, -⟩ := idx_facts t
  funext d
  show V m c main_arg0 (((cfg0.win 0).blk t).view.emb (ix3 0 p d)) = V m c main_arg0 (ix3 b (⟨q.val * 256 + p.val, by omega⟩ : Fin 1024) d)
  refine congrArg (V m c main_arg0) (funext fun a => Fin.ext ?_)
  match a with
  | ⟨0, _⟩ => show win0_0.index t (0 : Fin 3) * 1 + 1 * (0 : Fin 1).val = b.val; simp only [Fin.val_zero]; omega
  | ⟨1, _⟩ => show win0_0.index t (1 : Fin 3) * 256 + 1 * p.val = q.val * 256 + p.val; omega
  | ⟨2, _⟩ => show win0_0.index t (2 : Fin 3) * 1024 + 1 * d.val = d.val; omega

/-- The context block at point `t` is batch `b`'s context rows. -/
theorem cblock_rows (c : Dev nD) (t : Fin cfg0.N) (b : Fin 32) (hb : win0_5.index t (1 : Fin 2) = b.val) :
    bctx (iblk m c 1 t) = crows (V m c main_arg1) b := by
  obtain ⟨-, -, -, e3, e4, e5, -⟩ := idx_facts t
  funext s d
  show V m c main_arg1 (((cfg0.win 1).blk t).view.emb (ix3 0 s d)) = V m c main_arg1 (ix3 b s d)
  refine congrArg (V m c main_arg1) (funext fun a => Fin.ext ?_)
  match a with
  | ⟨0, _⟩ => show win0_1.index t (0 : Fin 3) * 1 + 1 * (0 : Fin 1).val = b.val; simp only [Fin.val_zero]; omega
  | ⟨1, _⟩ => show win0_1.index t (1 : Fin 3) * 1024 + 1 * s.val = s.val; omega
  | ⟨2, _⟩ => show win0_1.index t (2 : Fin 3) * 1024 + 1 * d.val = d.val; omega

/-- The input-weight block is the whole array. -/
theorem wblock (c : Dev nD) (t : Fin cfg0.N) : bmat (iblk m c 2 t) = matIn (V m c main_v0) := by
  obtain ⟨-, -, -, -, -, -, e6, e7, -⟩ := idx_facts t
  funext e d
  show V m c main_v0 (((cfg0.win 2).blk t).view.emb (ix2 e d)) = V m c main_v0 (ix2 e d)
  refine congrArg (V m c main_v0) (funext fun a => Fin.ext ?_)
  match a with
  | ⟨0, _⟩ => show win0_2.index t (0 : Fin 2) * 1024 + 1 * e.val = e.val; omega
  | ⟨1, _⟩ => show win0_2.index t (1 : Fin 2) * 1024 + 1 * d.val = d.val; omega

/-- The first half of the output-weight block, at `(d, f)`. -/
theorem oblock_lo (c : Dev nD) (t : Fin cfg0.N) (d f : Fin 1024) :
    View.ld (iblk m c 3 t) r0_4 (ix2 d f) = matOut (V m c main_v1) d (loHalf f) := by
  obtain ⟨-, -, -, -, -, -, -, -, e8, e9, -⟩ := idx_facts t
  show V m c main_v1 (((cfg0.win 3).blk t).view.emb (r0_4.idx (ix2 d f))) = V m c main_v1 (ix2 d (loHalf f))
  refine congrArg (V m c main_v1) (funext fun a => Fin.ext ?_)
  match a with
  | ⟨0, _⟩ => show win0_3.index t (0 : Fin 2) * 1024 + 1 * (0 + 1 * d.val) = d.val; omega
  | ⟨1, _⟩ => show win0_3.index t (1 : Fin 2) * 2048 + 1 * (0 + 1 * f.val) = f.val; omega

/-- The second half, at `(d, f)`. -/
theorem oblock_hi (c : Dev nD) (t : Fin cfg0.N) (d f : Fin 1024) :
    View.ld (iblk m c 3 t) r0_5 (ix2 d f) = matOut (V m c main_v1) d (hiHalf f) := by
  obtain ⟨-, -, -, -, -, -, -, -, e8, e9, -⟩ := idx_facts t
  show V m c main_v1 (((cfg0.win 3).blk t).view.emb (r0_5.idx (ix2 d f))) = V m c main_v1 (ix2 d (hiHalf f))
  refine congrArg (V m c main_v1) (funext fun a => Fin.ext ?_)
  match a with
  | ⟨0, _⟩ => show win0_3.index t (0 : Fin 2) * 1024 + 1 * (0 + 1 * d.val) = d.val; omega
  | ⟨1, _⟩ => show win0_3.index t (1 : Fin 2) * 2048 + 1 * (1024 + 1 * f.val) = 1024 + f.val; omega

/-! ## What a point writes back -/

/-- Where entry `(p, s)` of the weights' block at point `t` sits in the flat array. -/
theorem emb_align (t : Fin cfg0.N) (b : Fin 32) (q : Fin 4) (p : Fin 256) (s : Fin 1024)
    (hb : win0_5.index t (1 : Fin 2) = b.val) (hq : win0_5.index t (0 : Fin 2) = q.val) :
    ((cfg0.win 5).blk t).view.emb (ix2 p s) = ix2 (⟨q.val * 256 + p.val, by omega⟩ : Fin 1024) (colOf b s) :=
  funext fun a => Fin.ext (by
    match a with
    | ⟨0, _⟩ => show win0_5.index t (0 : Fin 2) * 256 + 1 * p.val = q.val * 256 + p.val; omega
    | ⟨1, _⟩ => show win0_5.index t (1 : Fin 2) * 1024 + 1 * s.val = b.val * 1024 + s.val; omega)

/-- Where entry `(p, d)` of the outputs' block at point `t` sits in the flat array. -/
theorem emb_attn (t : Fin cfg0.N) (b : Fin 32) (q : Fin 4) (p : Fin 256) (d : Fin 1024)
    (hb : win0_5.index t (1 : Fin 2) = b.val) (hq : win0_5.index t (0 : Fin 2) = q.val) :
    ((cfg0.win 4).blk t).view.emb (ix2 p d) = ix2 (⟨q.val * 256 + p.val, by omega⟩ : Fin 1024) (colOf b d) := by
  obtain ⟨-, -, -, -, -, -, -, -, -, -, e10, e11, -⟩ := idx_facts t
  exact funext fun a => Fin.ext (by
    match a with
    | ⟨0, _⟩ => show win0_4.index t (0 : Fin 2) * 256 + 1 * p.val = q.val * 256 + p.val; omega
    | ⟨1, _⟩ => show win0_4.index t (1 : Fin 2) * 1024 + 1 * d.val = b.val * 1024 + d.val; omega)

/-- Point `t` writes back the block of the flattened attention weights its index names. -/
theorem flushed_align (c : Dev nD) (t : Fin cfg0.N) :
    (dats m 0 c).flushed 5 t = ((cfg0.win 5).blk t).view.read (Elt Ideal)
      (alignFlat (V m c main_arg0) (V m c main_arg1) (V m c main_v0)) := by
  show (cfg0.win 5).cut (grid0.coords t) ((dats m 0 c).after 5 t) = _
  rw [after0_5]
  unfold out0_5
  rw [View.canon_unit_zero hz2]
  simp only [View.ld_unit_zero (S := S1x256x1024) hz3, View.ld_unit_zero (S := S1x1024x1024) hz3,
    View.ld_unit_zero (S := S1024x1024) hz2]
  obtain ⟨-, -, -, -, -, -, -, -, -, -, -, -, l0, l1⟩ := idx_facts t
  funext j
  obtain ⟨p, s, rfl⟩ : ∃ (p : Fin 256) (s : Fin 1024), j = ix2 p s := ⟨j 0, j 1, eq_ix2 j⟩
  show k0_pay3 (iblk m c 0 t) (iblk m c 1 t) (iblk m c 2 t) (ix2 p s)
    = alignFlat (V m c main_arg0) (V m c main_arg1) (V m c main_v0) (((cfg0.win 5).blk t).view.emb (ix2 p s))
  rw [emb_align t ⟨win0_5.index t (1 : Fin 2), by omega⟩ ⟨win0_5.index t (0 : Fin 2), by omega⟩ p s rfl rfl, alignFlat_at]
  refine (weights_at _ _ _ p s).trans ?_
  rw [qblock_row m c t ⟨win0_5.index t (1 : Fin 2), by omega⟩ ⟨win0_5.index t (0 : Fin 2), by omega⟩ p rfl rfl,
    cblock_rows m c t ⟨win0_5.index t (1 : Fin 2), by omega⟩ rfl, wblock m c t]

/-- Point `t` writes back the block of the flattened outputs its index names. -/
theorem flushed_attn (c : Dev nD) (t : Fin cfg0.N) :
    (dats m 0 c).flushed 4 t = ((cfg0.win 4).blk t).view.read (Elt Ideal)
      (attnFlat (V m c main_arg0) (V m c main_arg1) (V m c main_v0) (V m c main_v1)) := by
  show (cfg0.win 4).cut (grid0.coords t) ((dats m 0 c).after 4 t) = _
  rw [after0_4]
  unfold out0_4
  rw [View.canon_unit_zero hz2]
  simp only [View.ld_unit_zero (S := S1x256x1024) hz3, View.ld_unit_zero (S := S1x1024x1024) hz3,
    View.ld_unit_zero (S := S1024x1024) hz2]
  obtain ⟨-, -, -, -, -, -, -, -, -, -, -, -, l0, l1⟩ := idx_facts t
  funext j
  obtain ⟨p, d, rfl⟩ : ∃ (p : Fin 256) (d : Fin 1024), j = ix2 p d := ⟨j 0, j 1, eq_ix2 j⟩
  show k0_pay4 (iblk m c 0 t) (iblk m c 1 t) (iblk m c 2 t) (View.ld (iblk m c 3 t) r0_4) (View.ld (iblk m c 3 t) r0_5) (ix2 p d)
    = attnFlat (V m c main_arg0) (V m c main_arg1) (V m c main_v0) (V m c main_v1) (((cfg0.win 4).blk t).view.emb (ix2 p d))
  rw [emb_attn t ⟨win0_5.index t (1 : Fin 2), by omega⟩ ⟨win0_5.index t (0 : Fin 2), by omega⟩ p d rfl rfl, attnFlat_at]
  refine (outputs_at _ _ _ _ _ p d).trans ?_
  rw [qblock_row m c t ⟨win0_5.index t (1 : Fin 2), by omega⟩ ⟨win0_5.index t (0 : Fin 2), by omega⟩ p rfl rfl,
    cblock_rows m c t ⟨win0_5.index t (1 : Fin 2), by omega⟩ rfl, wblock m c t]
  unfold attend
  refine congrArg Ideal.tanh (congrArg₂ (· + ·) (Finset.sum_congr rfl fun f _ => ?_) (Finset.sum_congr rfl fun f _ => ?_))
  · rw [oblock_lo m c t d f]
  · rw [oblock_hi m c t d f]

/-! ## The blocks tile the arrays -/

/-- An index of the flat array is in point `t`'s block of the weights iff each coordinate is in the block's range. -/
theorem mem_blk_align (t : Fin cfg0.N) (i : S1024x32768.Idx) :
    i ∈ ((cfg0.win 5).blk t).view.set ↔ ∀ a : Fin 2, win0_5.index t a * S256x1024.size a ≤ (i a).val
      ∧ (i a).val < win0_5.index t a * S256x1024.size a + S256x1024.size a := by
  show i ∈ ((View.whole main_v2_1).slice (win0_5.rect t)).set ↔ _
  rw [View.set_slice_whole, Rect.mem_set_unit]
  exact Iff.rfl

/-- The same for the outputs' blocks. -/
theorem mem_blk_attn (t : Fin cfg0.N) (i : S1024x32768.Idx) :
    i ∈ ((cfg0.win 4).blk t).view.set ↔ ∀ a : Fin 2, win0_4.index t a * S256x1024.size a ≤ (i a).val
      ∧ (i a).val < win0_4.index t a * S256x1024.size a + S256x1024.size a := by
  show i ∈ ((View.whole main_v2_0).slice (win0_4.rect t)).set ↔ _
  rw [View.set_slice_whole, Rect.mem_set_unit]
  exact Iff.rfl

/-- Every entry of the flat weights is in the block of the point for its row tile and batch. -/
theorem cover_align (i : S1024x32768.Idx) :
    ∃ t : Fin cfg0.N, (cfg0.win 5).flush t = true ∧ i ∈ ((cfg0.win 5).blk t).view.set := by
  have h0 : (i 0).val < 1024 := (i 0).isLt
  have h1 : (i 1).val < 32768 := (i 1).isLt
  obtain ⟨t, ht, -⟩ := idx_onto ⟨(i 0).val / 256, by omega⟩ ⟨(i 1).val / 1024, by omega⟩
  have q0 : win0_5.index t (0 : Fin 2) = (i 0).val / 256 := congrFun ht 0
  have q1 : win0_5.index t (1 : Fin 2) = (i 1).val / 1024 := congrFun ht 1
  refine ⟨t, flush0_5 t, ?_⟩
  rw [mem_blk_align]
  intro a
  match a with
  | ⟨0, _⟩ => show win0_5.index t (0 : Fin 2) * 256 ≤ (i 0).val ∧ (i 0).val < win0_5.index t (0 : Fin 2) * 256 + 256; omega
  | ⟨1, _⟩ => show win0_5.index t (1 : Fin 2) * 1024 ≤ (i 1).val ∧ (i 1).val < win0_5.index t (1 : Fin 2) * 1024 + 1024; omega

/-- Every entry of the flat outputs likewise. -/
theorem cover_attn (i : S1024x32768.Idx) :
    ∃ t : Fin cfg0.N, (cfg0.win 4).flush t = true ∧ i ∈ ((cfg0.win 4).blk t).view.set := by
  have h0 : (i 0).val < 1024 := (i 0).isLt
  have h1 : (i 1).val < 32768 := (i 1).isLt
  obtain ⟨t, -, ht⟩ := idx_onto ⟨(i 0).val / 256, by omega⟩ ⟨(i 1).val / 1024, by omega⟩
  have q0 : win0_4.index t (0 : Fin 2) = (i 0).val / 256 := congrFun ht 0
  have q1 : win0_4.index t (1 : Fin 2) = (i 1).val / 1024 := congrFun ht 1
  refine ⟨t, flush0_4 t, ?_⟩
  rw [mem_blk_attn]
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 1024 ≤ (i 1).val ∧ (i 1).val < win0_4.index t (1 : Fin 2) * 1024 + 1024; omega

/-! ## The arrays after the region -/

/-- The region leaves the flattened attention weights of the arrays it found. -/
theorem final_align (c : Dev nD) :
    (dats m 0 c).arrAt 5 cfg0.N = alignFlat (V m c main_arg0) (V m c main_arg1) (V m c main_v0) :=
  (dats m 0 c).arrAt_eq_of_cover 5 _ (fun t _ => flushed_align m c t) cover_align

/-- The region leaves the flattened attentional outputs of the arrays it found. -/
theorem final_attn (c : Dev nD) :
    (dats m 0 c).arrAt 4 cfg0.N = attnFlat (V m c main_arg0) (V m c main_arg1) (V m c main_v0) (V m c main_v1) :=
  (dats m 0 c).arrAt_eq_of_cover 4 _ (fun t _ => flushed_attn m c t) cover_attn

end Cert.KernelIdeal.Arrays

end
-- ==== Proof.KernelRun.lean ====
/-
  The kernel program's run, with its two results named.

  Before the region the host only changes the float format of the two weight arrays, which is the identity on the
  extended reals, so the region finds the four arguments themselves. The region leaves the flattened weights and the
  flattened outputs of those arguments. After the region the host views each flat [1024, 32 · 1024] array as
  [1024, 32, 1024], which keeps every entry's row-major position: the results are the specification's time-major
  arrays of the arguments. The arguments themselves end as they were.
-/
import proofs.«112504_j24326694765263_2_alg».proof.Proof.KernelArrays
import Idealize.ShloMosaic.Lib.StableHlo.Run

set_option maxRecDepth 16384

noncomputable section

namespace Cert.KernelIdeal.RunValue

open Cert.KernelIdeal Cert.KernelIdeal.Gen Cert.KernelIdeal.Arrays Idealize.ShloMosaic Idealize.ShloMosaic.ValueIdx
open Idealize.ShloMosaic.TcCoe Idealize.SL.Sem Cert.Attention Idealize.ShloMosaic.StableHlo
open Idealize.ShloMosaic.Pipeline (Dat)

variable (m : (ℓ : Loc nD τ sig) → Buf (Elt Ideal) ℓ) (ρ : Dev nD → PrngReg)

/-! ## Before the region -/

/-- The input weights the region finds are the argument: the format change is the identity. -/
theorem found_win (c : Dev nD) :
    (V m c main_v0 : S1024x1024.Idx → EReal) = m ((c.tc : Thread nD τ).loc main_arg2) := by
  show StableHlo.after hostOps0 (fun b => m (c, b)) (Proc.devRef .tc main_v0) = _
  after_results
  rfl

/-- The output weights the region finds are the argument. -/
theorem found_wout (c : Dev nD) :
    (V m c main_v1 : S1024x2048.Idx → EReal) = m ((c.tc : Thread nD τ).loc main_arg3) := by
  show StableHlo.after hostOps0 (fun b => m (c, b)) (Proc.devRef .tc main_v1) = _
  after_results
  rfl

/-! ## The region's two arrays, of the arguments -/

/-- The flattened outputs of the arguments. -/
theorem region_attn (c : Dev nD) :
    (Pipeline.withArrays spec0 c (V0 m c) (fun w => (dats m 0 c).arrAt w cfg0.N) (Proc.devRef .tc main_v2_0) : S1024x32768.Idx → EReal)
      = attnFlat (m ((c.tc : Thread nD τ).loc main_arg0)) (m ((c.tc : Thread nD τ).loc main_arg1))
          (m ((c.tc : Thread nD τ).loc main_arg2)) (m ((c.tc : Thread nD τ).loc main_arg3)) := by
  refine ((Pipeline.withArrays_arr spec0 launch0.win.arr_inj c _ _ 4).trans (final_attn m c)).trans ?_
  rw [V_main_arg0, V_main_arg1, found_win, found_wout]

/-- The flattened weights of the arguments. -/
theorem region_align (c : Dev nD) :
    (Pipeline.withArrays spec0 c (V0 m c) (fun w => (dats m 0 c).arrAt w cfg0.N) (Proc.devRef .tc main_v2_1) : S1024x32768.Idx → EReal)
      = alignFlat (m ((c.tc : Thread nD τ).loc main_arg0)) (m ((c.tc : Thread nD τ).loc main_arg1))
          (m ((c.tc : Thread nD τ).loc main_arg2)) := by
  refine ((Pipeline.withArrays_arr spec0 launch0.win.arr_inj c _ _ 5).trans (final_align m c)).trans ?_
  rw [V_main_arg0, V_main_arg1, found_win]

/-! ## After the region -/

/-- The first result: the flat outputs viewed time-major. -/
theorem tail_attn (c : Dev nD) :
    Pipeline.afterTail₀ cfgs (dats m) 0 (V0 m) [hostOps1] c main_v3
      = attnArr (m ((c.tc : Thread nD τ).loc main_arg0)) (m ((c.tc : Thread nD τ).loc main_arg1))
          (m ((c.tc : Thread nD τ).loc main_arg2)) (m ((c.tc : Thread nD τ).loc main_arg3)) := by
  unfold Pipeline.afterTail₀
  show StableHlo.after hostOps1 _ (Proc.devRef .tc main_v3) = _
  after_results
  show shapeCast S1024x32x1024
      (Pipeline.withArrays spec0 c (V0 m c) (fun w => (dats m 0 c).arrAt w cfg0.N) (Proc.devRef .tc main_v2_0) : S1024x32768.Idx → EReal)
      shapeCasts_S1024x32768_S1024x32x1024 = _
  exact (congrArg (fun X : S1024x32768.Idx → EReal => shapeCast S1024x32x1024 X shapeCasts_S1024x32768_S1024x32x1024)
    (region_attn m c)).trans (reshape_attn _ _ _ _ _)

/-- The second result: the flat weights viewed time-major. -/
theorem tail_align (c : Dev nD) :
    Pipeline.afterTail₀ cfgs (dats m) 0 (V0 m) [hostOps1] c main_v4
      = alignArr (m ((c.tc : Thread nD τ).loc main_arg0)) (m ((c.tc : Thread nD τ).loc main_arg1))
          (m ((c.tc : Thread nD τ).loc main_arg2)) := by
  unfold Pipeline.afterTail₀
  show StableHlo.after hostOps1 _ (Proc.devRef .tc main_v4) = _
  after_results
  show shapeCast S1024x32x1024
      (Pipeline.withArrays spec0 c (V0 m c) (fun w => (dats m 0 c).arrAt w cfg0.N) (Proc.devRef .tc main_v2_1) : S1024x32768.Idx → EReal)
      shapeCasts_S1024x32768_S1024x32x1024 = _
  exact (congrArg (fun X : S1024x32768.Idx → EReal => shapeCast S1024x32x1024 X shapeCasts_S1024x32768_S1024x32x1024)
    (region_align m c)).trans (reshape_align _ _ _ _)

/-! ## The run -/

/-- Every weakly fair execution of the kernel program terminates, nothing faulting, with its two results at the
    specification's arrays of the arguments and the arguments unchanged. -/
theorem run : θ_run defs (onTc (τ := τ) (main (F := Ideal))) ⟨m, fun _ => 0, ρ⟩ fun r => ∀ c : Dev nD,
      r.2.mem ((c.tc : Thread nD τ).loc main_v3)
        = attnArr (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_v4)
        = alignArr (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v3 (Pipeline.mem_restRefs_of main_v3 (by decide) (by decide))).trans (tail_attn m c),
      ((h c).2 main_v4 (Pipeline.mem_restRefs_of main_v4 (by decide) (by decide))).trans (tail_align m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.RunValue

end
-- ==== Proof.lean ====
/-
  Global attention with a softmax over the source positions: a kernel tiled over batches and blocks of 256 query
  rows, against its whole-array reference, read on the extended reals.

  For each query row both programs project the row by the input weights, score it against the batch's 1024 context
  rows, turn the scores into weights by a softmax that subtracts the row maximum, mix the context rows by those
  weights, and apply `tanh` to the output projection of the mixed row joined with the query row; they return the
  outputs and the weights with the query position as the leading axis.

  On the extended reals a change of float format is the identity and every sum is exact, so the two programs differ
  in three places only. The reference takes the row maximum once more against −∞: the identity, −∞ being the least
  extended real. The reference contracts the joined vector of 2048 features with the output weights in one sum,
  where the kernel adds the sum over the first 1024 features and the sum over the last 1024: equal, because
  addition of extended reals is associative and commutative for any summands. And the kernel writes each result
  block by block into a [1024, 32 · 1024] array that it then views as [1024, 32, 1024], where the reference
  exchanges the first two axes of a [32, 1024, 1024] array: the same entry at every index. No step uses that the
  inputs are finite, so the precondition is never opened.

  The three frames are the generated ones (the reference's is its generated run with the results dropped); the
  ideal pass rewrote nothing, so `preserves` is trivial; `algebraic` pairs the kernel's run (Proof/KernelRun.lean)
  with the reference's (Proof/RefAttention.lean over the generated run), both at the specification's arrays
  (Proof/AttentionSpec.lean) of arguments that agree.
-/
import proofs.«112504_j24326694765263_2_alg».proof.Defs
import proofs.«112504_j24326694765263_2_alg».proof.Proof.Gen.Kernel
import proofs.«112504_j24326694765263_2_alg».proof.Proof.Gen.Kernel.Skeleton
import proofs.«112504_j24326694765263_2_alg».proof.Proof.Gen.Kernel.Launch
import proofs.«112504_j24326694765263_2_alg».proof.Proof.Gen.Kernel.Points
import proofs.«112504_j24326694765263_2_alg».proof.Proof.Gen.Kernel.Frame
import proofs.«112504_j24326694765263_2_alg».proof.Proof.Gen.KernelIdeal
import proofs.«112504_j24326694765263_2_alg».proof.Proof.Gen.KernelIdeal.Skeleton
import proofs.«112504_j24326694765263_2_alg».proof.Proof.Gen.KernelIdeal.Launch
import proofs.«112504_j24326694765263_2_alg».proof.Proof.Gen.KernelIdeal.Points
import proofs.«112504_j24326694765263_2_alg».proof.Proof.Gen.KernelIdeal.Frame
import proofs.«112504_j24326694765263_2_alg».proof.Proof.Gen.ReferenceIdeal
import proofs.«112504_j24326694765263_2_alg».proof.Proof.Gen.ReferenceIdeal.Run
import proofs.«112504_j24326694765263_2_alg».proof.Proof.Gen.ReferenceIdeal.Read
import proofs.«112504_j24326694765263_2_alg».proof.Proof.Gen.Pre_finite_inputs
import proofs.«112504_j24326694765263_2_alg».proof.Proof.RefAttention
import proofs.«112504_j24326694765263_2_alg».proof.Proof.KernelRun
import Idealize.ShloMosaic.Adequacy
import Idealize.ShloMosaic.Init

noncomputable section

namespace Cert.Proof

open Idealize.ShloMosaic Idealize.SL.Sem Cert.Attention

/-- The kernel as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- From memories agreeing on the four arguments both programs end with the attentional outputs and the attention
    weights of the specification, time-major, of those arguments. -/
theorem algebraic : Cert.algebraic_KernelIdeal_ReferenceIdeal := by
  intro m ρ m' ρ' _ hagree
  refine ⟨_, _, Cert.KernelIdeal.RunValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine (Cert.ReferenceIdeal.Read.val_main_v17_eq _ _ _ _).trans ((Cert.ReferenceIdeal.RefValue.attn_eq _ _ _ _).trans ?_)
    rw [(hagree c).1, (hagree c).2.1, (hagree c).2.2.1, (hagree c).2.2.2]
  · refine (Cert.ReferenceIdeal.Read.val_main_v18_eq _ _ _).trans ((Cert.ReferenceIdeal.RefValue.align_eq _ _ _).trans ?_)
    rw [(hagree c).1, (hagree c).2.1, (hagree c).2.2.1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
